-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x1600000 32) (main_arg1 : FVec F S50000x64 .f32) (main_arg2 : FVec F S1600000x32 .f32) (main_arg3 : FVec F S128x160 .f32) (main_arg4 : FVec F S128 .f32) (main_arg5 : FVec F S64x128 .f32) (main_arg6 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S128x32 : Shape := ⟨2, ![128, 32]⟩
abbrev S32x128 : Shape := ⟨2, ![32, 128]⟩
abbrev S128x64 : Shape := ⟨2, ![128, 64]⟩
abbrev S1x128 : Shape := ⟨2, ![1, 128]⟩
abbrev S1x64 : Shape := ⟨2, ![1, 64]⟩
abbrev S6400x32 : Shape := ⟨2, ![6400, 32]⟩
abbrev S6400x64 : Shape := ⟨2, ![6400, 64]⟩
abbrev S6400x128 : Shape := ⟨2, ![6400, 128]⟩

abbrev nBuf : Space → Nat
  | .hbm => 44
  | .vmem => 14
  | .smem => 0
  | _ => 0

abbrev bufTy : (tb : Table) → Fin (tcTables nBuf tb) → BufTy
  | .hbm, ⟨0, _⟩ => ⟨S2x1600000, .i32⟩
  | .hbm, ⟨1, _⟩ => ⟨S50000x64, .f32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S50000x64, .bf16⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .bf16⟩
  | .hbm, ⟨30, _⟩ => ⟨S128x32, .f32⟩
  | .hbm, ⟨31, _⟩ => ⟨S32x128, .f32⟩
  | .hbm, ⟨32, _⟩ => ⟨S32x128, .bf16⟩
  | .hbm, ⟨33, _⟩ => ⟨S128x64, .f32⟩
  | .hbm, ⟨34, _⟩ => ⟨S64x128, .f32⟩
  | .hbm, ⟨35, _⟩ => ⟨S64x128, .bf16⟩
  | .hbm, ⟨36, _⟩ => ⟨S128x64, .f32⟩
  | .hbm, ⟨37, _⟩ => ⟨S64x128, .f32⟩
  | .hbm, ⟨38, _⟩ => ⟨S64x128, .bf16⟩
  | .hbm, ⟨39, _⟩ => ⟨S1x128, .f32⟩
  | .hbm, ⟨40, _⟩ => ⟨S128x64, .f32⟩
  | .hbm, ⟨41, _⟩ => ⟨S128x64, .bf16⟩
  | .hbm, ⟨42, _⟩ => ⟨S1x64, .f32⟩
  | .hbm, ⟨43, _⟩ => ⟨S1600000x64, .f32⟩
  | .local _ .vmem, ⟨0, _⟩ => ⟨S6400x32, .f32⟩
  | .local _ .vmem, ⟨1, _⟩ => ⟨S6400x32, .f32⟩
  | .local _ .vmem, ⟨2, _⟩ => ⟨S6400x64, .bf16⟩
  | .local _ .vmem, ⟨3, _⟩ => ⟨S6400x64, .bf16⟩
  | .local _ .vmem, ⟨4, _⟩ => ⟨S6400x64, .bf16⟩
  | .local _ .vmem, ⟨5, _⟩ => ⟨S6400x64, .bf16⟩
  | .local _ .vmem, ⟨6, _⟩ => ⟨S32x128, .bf16⟩
  | .local _ .vmem, ⟨7, _⟩ => ⟨S64x128, .bf16⟩
  | .local _ .vmem, ⟨8, _⟩ => ⟨S64x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_1 : Ref sig .tc := ⟨.hbm, 21, rfl⟩
abbrev main_call0_v12 : Ref sig .tc := ⟨.hbm, 22, rfl⟩
abbrev main_call0_v13 : Ref sig .tc := ⟨.hbm, 23, rfl⟩
abbrev main_call0_c_2 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_v31 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  slices_S128x160_S128x32_0_0 : S128x160.Slices ![0, 0] S128x32
  transposes_S128x32_S32x128_1_0 : S128x32.Transposes [1, 0] S32x128
  slices_S128x160_S128x64_0_32 : S128x160.Slices ![0, 32] S128x64
  transposes_S128x64_S64x128_1_0 : S128x64.Transposes [1, 0] S64x128
  slices_S128x160_S128x64_0_96 : S128x160.Slices ![0, 96] S128x64
  shapeCasts_S128_S1x128 : S128.ShapeCasts S1x128
  transposes_S64x128_S128x64_1_0 : S64x128.Transposes [1, 0] S128x64
  shapeCasts_S64_S1x64 : S64.ShapeCasts S1x64
  inb_S6400x32_S6400x32_0_0 : ∀ a, (![0, 0] : Fin 2 → Nat) a + S6400x32.size a ≤ S6400x32.size a
  h_S6400x32 : 0 < S6400x32.numel
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  gather_S50000x64_S1600000x1_S1600000x64_1_0_n_n_0_1_164_wf : GatherDims.WF S50000x64 S1600000x1 S1600000x64 [1] [0] [] [0] [] 1 ![1, 64]
  dot_S6400x32_S32x128_S6400x128_1_0_0_1_n_n_wf : DotDims.WF S6400x32 S32x128 S6400x128 [1] [0] [0] [1] [] []
  dot_S6400x64_S64x128_S6400x128_1_0_0_1_n_n_wf : DotDims.WF S6400x64 S64x128 S6400x128 [1] [0] [0] [1] [] []
  dot_S6400x128_S128x64_S6400x64_1_0_0_1_n_n_wf : DotDims.WF S6400x128 S128x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S1600000x32.size a
  hwx0_0 : ∀ i : grid0.Coords, EltTy.bits .f32 = 32 ∨ (Rect.block (s := S1600000x32) S6400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .bf16 = 32 ∨ (Rect.block (s := S1600000x64) S6400x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S1600000x64.size a
  hwx0_2 : ∀ i : grid0.Coords, EltTy.bits .bf16 = 32 ∨ (Rect.block (s := S1600000x64) S6400x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S1600000x64.size a
  hwx0_9 : ∀ i : grid0.Coords, EltTy.bits .f32 = 32 ∨ (Rect.block (s := S1600000x64) S6400x64.size (cc0_transform_9 i) (hinb0_9 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf

abbrev win0_0 : Pipeline.Window sig grid0 :=
  Pipeline.Window.ofSpec (Memref.whole main_arg2) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v24) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v27) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v30) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v31) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S50000x64 : Shape := ⟨2, ![50000, 64]⟩
abbrev S1600000x32 : Shape := ⟨2, ![1600000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S160x128 : Shape := ⟨2, ![160, 128]⟩
abbrev S1600000x128 : Shape := ⟨2, ![1600000, 128]⟩
abbrev S1x128 : Shape := ⟨2, ![1, 128]⟩
abbrev S128x64 : Shape := ⟨2, ![128, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S50000x64, .f32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x160, .f32⟩
  | .hbm, ⟨30, _⟩ => ⟨S160x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S128x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  concatenates_S1600000x32_S1600000x64_S1600000x64_S1600000x160_d1 : Shape.Concatenates [S1600000x32, S1600000x64, S1600000x64] S1600000x160 1
  transposes_S128x160_S160x128_1_0 : S128x160.Transposes [1, 0] S160x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  gather_S50000x64_S1600000x1_S1600000x64_1_0_n_n_0_1_164_wf : GatherDims.WF S50000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.EdgeMlp.lean ====
/-
  The mathematics of the edge network, over the extended reals.

  For one edge the input is a row of 160 numbers laid side by side: 32 edge features, then the 64 features of the
  edge's source node, then the 64 features of its target node. A first affine layer with a 128 × 160 weight matrix
  and a bias, cut below at zero, is followed by a second affine layer with a 64 × 128 weight matrix and a bias.

  One side of the comparison multiplies the whole row of 160 with the whole weight matrix; the other multiplies the
  three parts of the row with the three column blocks of the matrix (columns 0–31, 32–95, 96–159) and adds the three
  products. The two agree because a sum over 160 columns is the sum over the first 32, plus the sum over the next 64,
  plus the sum over the last 64 (`sum_cols`): addition of extended reals is commutative and associative, and
  nothing else is used — no term is moved across a product, so no entry has to be finite.

  `mlpRow` is the network on one edge, written with the three column blocks apart; `mlpRows` applies it to every row of
  arrays of any number of rows (a block of rows of the edge list, or all of it), so that a computation done on blocks
  of rows agrees with the one done on all rows, row by row; `G` is `mlpRows` with the three blocks, the two bias rows and
  the transposed second matrix read out of the arrays the network is given.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx

/-- Column `k` of the edge-feature block: columns 0 … 31 of the 160. -/
abbrev colE (k : Fin 32) : Fin 160 := ⟨k.val, by omega⟩
/-- Column `k` of the source-node block: columns 32 … 95. -/
abbrev colS (k : Fin 64) : Fin 160 := ⟨32 + k.val, by omega⟩
/-- Column `k` of the target-node block: columns 96 … 159. -/
abbrev colT (k : Fin 64) : Fin 160 := ⟨96 + k.val, by omega⟩

/-- A sum over the 160 columns is the sum over the first 32, plus the sum over the next 64, plus the sum over the last
    64 — in any commutative additive monoid. -/
theorem sum_cols {M : Type*} [AddCommMonoid M] (f : Fin 160 → M) :
    ∑ j : Fin 160, f j = (∑ k : Fin 32, f (colE k) + ∑ k : Fin 64, f (colS k)) + ∑ k : Fin 64, f (colT k) := by
  have h1 : ∑ j : Fin 160, f j = ∑ i : Fin 96, f (Fin.castAdd 64 i) + ∑ i : Fin 64, f (Fin.natAdd 96 i) :=
    Fin.sum_univ_add (a := 96) (b := 64) f
  have h2 : ∑ i : Fin 96, f (Fin.castAdd 64 i)
      = ∑ i : Fin 32, f (Fin.castAdd 64 (Fin.castAdd 64 i)) + ∑ i : Fin 64, f (Fin.castAdd 64 (Fin.natAdd 32 i)) :=
    Fin.sum_univ_add (a := 32) (b := 64) fun i => f (Fin.castAdd 64 i)
  rw [h1, h2]
  rfl

/-- The hidden unit `h` of one edge: the three partial products added in order, the bias added, the result cut below at
    `z` (the network's zero). `A`, `B`, `C` are the three column blocks of the first weight matrix, transposed. -/
def hiddenAt (ef : Fin 32 → EReal) (s t : Fin 64 → EReal) (A : Fin 32 → Fin 128 → EReal) (B C : Fin 64 → Fin 128 → EReal)
    (b1 : Fin 128 → EReal) (z : EReal) (h : Fin 128) : EReal :=
  max ((((∑ k : Fin 32, ef k * A k h) + ∑ k : Fin 64, s k * B k h) + ∑ k : Fin 64, t k * C k h) + b1 h) z

/-- Output `o` of one edge: the hidden units times the second weight matrix (transposed: `D h o`), plus the second bias. -/
def mlpRow (ef : Fin 32 → EReal) (s t : Fin 64 → EReal) (A : Fin 32 → Fin 128 → EReal) (B C : Fin 64 → Fin 128 → EReal)
    (b1 : Fin 128 → EReal) (D : Fin 128 → Fin 64 → EReal) (b2 : Fin 64 → EReal) (z : EReal) (o : Fin 64) : EReal :=
  (∑ h : Fin 128, hiddenAt ef s t A B C b1 z h * D h o) + b2 o

/-- The network on every row of arrays with `N` rows: row `r` of the result reads row `r` of the three inputs, and the
    weights and biases as given (the biases as arrays of one row). -/
def mlpRows {N : Nat} (ef : (⟨2, ![N, 32]⟩ : Shape).Idx → EReal) (src tgt : (⟨2, ![N, 64]⟩ : Shape).Idx → EReal)
    (A : (⟨2, ![32, 128]⟩ : Shape).Idx → EReal) (B C : (⟨2, ![64, 128]⟩ : Shape).Idx → EReal)
    (b1 : (⟨2, ![1, 128]⟩ : Shape).Idx → EReal) (D : (⟨2, ![128, 64]⟩ : Shape).Idx → EReal)
    (b2 : (⟨2, ![1, 64]⟩ : Shape).Idx → EReal) : (⟨2, ![N, 64]⟩ : Shape).Idx → EReal :=
  fun i => mlpRow (fun k => ef (ix2 (i 0) k)) (fun k => src (ix2 (i 0) k)) (fun k => tgt (ix2 (i 0) k))
    (fun k h => A (ix2 k h)) (fun k h => B (ix2 k h)) (fun k h => C (ix2 k h)) (fun h => b1 (ix2 (0 : Fin 1) h))
    (fun h o => D (ix2 h o)) (fun o => b2 (ix2 (0 : Fin 1) o)) (Ideal.ofBits .f32 0x00000000#32) (i 1)

theorem mlpRows_apply {N : Nat} (ef : (⟨2, ![N, 32]⟩ : Shape).Idx → EReal) (src tgt : (⟨2, ![N, 64]⟩ : Shape).Idx → EReal)
    (A : (⟨2, ![32, 128]⟩ : Shape).Idx → EReal) (B C : (⟨2, ![64, 128]⟩ : Shape).Idx → EReal)
    (b1 : (⟨2, ![1, 128]⟩ : Shape).Idx → EReal) (D : (⟨2, ![128, 64]⟩ : Shape).Idx → EReal)
    (b2 : (⟨2, ![1, 64]⟩ : Shape).Idx → EReal) (r : Fin N) (o : Fin 64) :
    mlpRows ef src tgt A B C b1 D b2 (ix2 r o)
      = mlpRow (fun k => ef (ix2 r k)) (fun k => src (ix2 r k)) (fun k => tgt (ix2 r k))
          (fun k h => A (ix2 k h)) (fun k h => B (ix2 k h)) (fun k h => C (ix2 k h)) (fun h => b1 (ix2 (0 : Fin 1) h))
          (fun h o => D (ix2 h o)) (fun o => b2 (ix2 (0 : Fin 1) o)) (Ideal.ofBits .f32 0x00000000#32) o := rfl

/-- Row-locality: row `r` of the network on arrays of `n` rows is row `r'` of the network on arrays of `N` rows whenever
    row `r` of each of the three inputs is row `r'` of its counterpart (the weights and biases the same). -/
theorem mlpRows_row {n N : Nat} (ef' : (⟨2, ![n, 32]⟩ : Shape).Idx → EReal) (src' tgt' : (⟨2, ![n, 64]⟩ : Shape).Idx → EReal)
    (ef : (⟨2, ![N, 32]⟩ : Shape).Idx → EReal) (src tgt : (⟨2, ![N, 64]⟩ : Shape).Idx → EReal)
    (A : (⟨2, ![32, 128]⟩ : Shape).Idx → EReal) (B C : (⟨2, ![64, 128]⟩ : Shape).Idx → EReal)
    (b1 : (⟨2, ![1, 128]⟩ : Shape).Idx → EReal) (D : (⟨2, ![128, 64]⟩ : Shape).Idx → EReal)
    (b2 : (⟨2, ![1, 64]⟩ : Shape).Idx → EReal) (r : Fin n) (r' : Fin N)
    (he : ∀ k : Fin 32, ef' (ix2 r k) = ef (ix2 r' k)) (hs : ∀ k : Fin 64, src' (ix2 r k) = src (ix2 r' k))
    (ht : ∀ k : Fin 64, tgt' (ix2 r k) = tgt (ix2 r' k)) (o : Fin 64) :
    mlpRows ef' src' tgt' A B C b1 D b2 (ix2 r o) = mlpRows ef src tgt A B C b1 D b2 (ix2 r' o) := by
  rw [mlpRows_apply, mlpRows_apply, funext he, funext hs, funext ht]

/-- The network on one edge depends on nothing but its operands. -/
theorem mlpRow_congr {ef ef' : Fin 32 → EReal} {s s' t t' : Fin 64 → EReal} {A A' : Fin 32 → Fin 128 → EReal}
    {B B' C C' : Fin 64 → Fin 128 → EReal} {b1 b1' : Fin 128 → EReal} {D D' : Fin 128 → Fin 64 → EReal}
    {b2 b2' : Fin 64 → EReal} {z : EReal} {o o' : Fin 64}
    (he : ef' = ef) (hs : s' = s) (ht : t' = t) (hA : A' = A) (hB : B' = B) (hC : C' = C) (hb1 : b1' = b1) (hD : D' = D)
    (hb2 : b2' = b2) (ho : o' = o) :
    mlpRow ef' s' t' A' B' C' b1' D' b2' z o' = mlpRow ef s t A B C b1 D b2 z o := by
  subst he hs ht hA hB hC hb1 hD hb2 ho
  rfl

/-- The same with every operand compared entry by entry: the network at an entry of arrays with `n` rows is the network
    at an entry of arrays with `N` rows when the two entries are in the same column, the rows of the three inputs they
    read agree, and the weights and biases agree entry by entry. -/
theorem mlpRows_congr {n N : Nat}
    (ef' : (⟨2, ![n, 32]⟩ : Shape).Idx → EReal) (src' tgt' : (⟨2, ![n, 64]⟩ : Shape).Idx → EReal)
    (A' : (⟨2, ![32, 128]⟩ : Shape).Idx → EReal) (B' C' : (⟨2, ![64, 128]⟩ : Shape).Idx → EReal)
    (b1' : (⟨2, ![1, 128]⟩ : Shape).Idx → EReal) (D' : (⟨2, ![128, 64]⟩ : Shape).Idx → EReal)
    (b2' : (⟨2, ![1, 64]⟩ : Shape).Idx → EReal)
    (ef : (⟨2, ![N, 32]⟩ : Shape).Idx → EReal) (src tgt : (⟨2, ![N, 64]⟩ : Shape).Idx → EReal)
    (A : (⟨2, ![32, 128]⟩ : Shape).Idx → EReal) (B C : (⟨2, ![64, 128]⟩ : Shape).Idx → EReal)
    (b1 : (⟨2, ![1, 128]⟩ : Shape).Idx → EReal) (D : (⟨2, ![128, 64]⟩ : Shape).Idx → EReal)
    (b2 : (⟨2, ![1, 64]⟩ : Shape).Idx → EReal)
    (y : (⟨2, ![n, 64]⟩ : Shape).Idx) (i : (⟨2, ![N, 64]⟩ : Shape).Idx)
    (hc : (y 1).val = (i 1).val)
    (he : ∀ k : Fin 32, ef' (ix2 (y 0) k) = ef (ix2 (i 0) k))
    (hs : ∀ k : Fin 64, src' (ix2 (y 0) k) = src (ix2 (i 0) k))
    (ht : ∀ k : Fin 64, tgt' (ix2 (y 0) k) = tgt (ix2 (i 0) k))
    (hA : ∀ (k : Fin 32) (h : Fin 128), A' (ix2 k h) = A (ix2 k h))
    (hB : ∀ (k : Fin 64) (h : Fin 128), B' (ix2 k h) = B (ix2 k h))
    (hC : ∀ (k : Fin 64) (h : Fin 128), C' (ix2 k h) = C (ix2 k h))
    (hb1 : ∀ h : Fin 128, b1' (ix2 (0 : Fin 1) h) = b1 (ix2 (0 : Fin 1) h))
    (hD : ∀ (h : Fin 128) (o : Fin 64), D' (ix2 h o) = D (ix2 h o))
    (hb2 : ∀ o : Fin 64, b2' (ix2 (0 : Fin 1) o) = b2 (ix2 (0 : Fin 1) o)) :
    mlpRows ef' src' tgt' A' B' C' b1' D' b2' y = mlpRows ef src tgt A B C b1 D b2 i :=
  mlpRow_congr (funext he) (funext hs) (funext ht) (funext fun k => funext fun h => hA k h)
    (funext fun k => funext fun h => hB k h) (funext fun k => funext fun h => hC k h) (funext hb1)
    (funext fun h => funext fun o => hD h o) (funext hb2) (Fin.ext hc)

/-- The three column blocks of the first weight matrix, transposed: entry `(k, h)` is the matrix at `(h, column k of
    the block)`. -/
def wE (W1 : (⟨2, ![128, 160]⟩ : Shape).Idx → EReal) : (⟨2, ![32, 128]⟩ : Shape).Idx → EReal :=
  fun i => W1 (ix2 (i 1) (colE (i 0)))
def wS (W1 : (⟨2, ![128, 160]⟩ : Shape).Idx → EReal) : (⟨2, ![64, 128]⟩ : Shape).Idx → EReal :=
  fun i => W1 (ix2 (i 1) (colS (i 0)))
def wT (W1 : (⟨2, ![128, 160]⟩ : Shape).Idx → EReal) : (⟨2, ![64, 128]⟩ : Shape).Idx → EReal :=
  fun i => W1 (ix2 (i 1) (colT (i 0)))

/-- A vector as an array of one row. -/
def rowOf {n : Nat} (b : (⟨1, ![n]⟩ : Shape).Idx → EReal) : (⟨2, ![1, n]⟩ : Shape).Idx → EReal := fun i => b (ix1 (i 1))

/-- The second weight matrix transposed. -/
def wD (W2 : (⟨2, ![64, 128]⟩ : Shape).Idx → EReal) : (⟨2, ![128, 64]⟩ : Shape).Idx → EReal :=
  fun i => W2 (ix2 (i 1) (i 0))

/-- THE RESULT as one function of the edge features, the gathered source and target rows, and the network's weights
    and biases. -/
def G {N : Nat} (ef : (⟨2, ![N, 32]⟩ : Shape).Idx → EReal) (src tgt : (⟨2, ![N, 64]⟩ : Shape).Idx → EReal)
    (W1 : (⟨2, ![128, 160]⟩ : Shape).Idx → EReal) (b1 : (⟨1, ![128]⟩ : Shape).Idx → EReal)
    (W2 : (⟨2, ![64, 128]⟩ : Shape).Idx → EReal) (b2 : (⟨1, ![64]⟩ : Shape).Idx → EReal) :
    (⟨2, ![N, 64]⟩ : Shape).Idx → EReal :=
  mlpRows ef src tgt (wE W1) (wS W1) (wT W1) (rowOf b1) (wD W2) (rowOf b2)

end Cert.EdgeMlp

end
-- ==== Proof.Payload.lean ====
/-
  What the kernel's body computes from the blocks it loads, over the extended reals.

  The body loads a block of 6400 rows of edge features, the same rows of the gathered source and target node features,
  the three transposed column blocks of the first weight matrix, the first bias as one row, the transposed second weight
  matrix and the second bias as one row; it multiplies, adds, cuts below at zero, multiplies and adds again. Read at
  an entry `(p, q)` of the block, with every change of float format the identity and every product of matrices into a
  zero accumulator the plain sum of products, this is the network `EdgeMlp.mlpRows` on the block's 6400 rows.
-/
import proofs.«159807_j14336600834812_2_alg».proof.Proof.Gen.KernelIdeal.Skeleton
import proofs.«159807_j14336600834812_2_alg».proof.Proof.EdgeMlp
import Idealize.ShloMosaic.Lib.StackMember
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.EdgeMlp

/-- A product of an `N × K` matrix with a `K × M` matrix, accumulated into the zero matrix, at entry `(r, c)`: the sum
    over the inner coordinate of the products of the entries. -/
theorem matmul_plain_apply {N K M : Nat} {φ₁ φ₂ : FTy} (d : DotDims ⟨2, ![N, K]⟩ ⟨2, ![K, M]⟩ ⟨2, ![N, M]⟩)
    (hd : d = DotDims.plain N K M) (A : FVec Ideal ⟨2, ![N, K]⟩ φ₁) (B : FVec Ideal ⟨2, ![K, M]⟩ φ₂) (r : Fin N) (c : Fin M) :
    matmul d none A B (constant ⟨2, ![N, M]⟩ .f32 0x00000000#32) (ix2 r c) = ∑ k : Fin K, A (ix2 r k) * B (ix2 k c) := by
  subst hd
  rw [matmul_zero_eq_dotGeneral]
  exact StackMember.dotGeneral_plain_apply none A B r c

/-- The edge-feature block times its column block of the first weight matrix. -/
theorem mmE (A : FVec Ideal S6400x32 .bf16) (B : FVec Ideal S32x128 .bf16) (p : Fin 6400) (h : Fin 128) :
    matmul dot_S6400x32_S32x128_S6400x128_1_0_0_1_n_n none A B (constant S6400x128 .f32 0x00000000#32) (ix2 p h)
      = ∑ k : Fin 32, A (ix2 p k) * B (ix2 k h) :=
  matmul_plain_apply dot_S6400x32_S32x128_S6400x128_1_0_0_1_n_n rfl A B p h

/-- A node-feature block times its column block of the first weight matrix. -/
theorem mmN (A : FVec Ideal S6400x64 .bf16) (B : FVec Ideal S64x128 .bf16) (p : Fin 6400) (h : Fin 128) :
    matmul dot_S6400x64_S64x128_S6400x128_1_0_0_1_n_n none A B (constant S6400x128 .f32 0x00000000#32) (ix2 p h)
      = ∑ k : Fin 64, A (ix2 p k) * B (ix2 k h) :=
  matmul_plain_apply dot_S6400x64_S64x128_S6400x128_1_0_0_1_n_n rfl A B p h

/-- The hidden block times the transposed second weight matrix. -/
theorem mmH (A : FVec Ideal S6400x128 .bf16) (B : FVec Ideal S128x64 .bf16) (p : Fin 6400) (q : Fin 64) :
    matmul dot_S6400x128_S128x64_S6400x64_1_0_0_1_n_n none A B (constant S6400x64 .f32 0x00000000#32) (ix2 p q)
      = ∑ h : Fin 128, A (ix2 p h) * B (ix2 h q) :=
  matmul_plain_apply dot_S6400x128_S128x64_S6400x64_1_0_0_1_n_n rfl A B p q

/-- The first bias, one row laid along every row of the hidden block. -/
theorem bias1_apply (v : FVec Ideal S1x128 .f32) (p : Fin 6400) (h : Fin 128) :
    broadcastTo S6400x128 v broadcasts_S1x128_S6400x128 (ix2 p h) = v (ix2 (0 : Fin 1) h) :=
  broadcastTo_1b_ab_apply v broadcasts_S1x128_S6400x128 p h

/-- The second bias, one row laid along every row of the output block. -/
theorem bias2_apply (v : FVec Ideal S1x64 .f32) (p : Fin 6400) (q : Fin 64) :
    broadcastTo S6400x64 v broadcasts_S1x64_S6400x64 (ix2 p q) = v (ix2 (0 : Fin 1) q) :=
  broadcastTo_1b_ab_apply v broadcasts_S1x64_S6400x64 p q

/-- THE BODY'S PAYLOAD is the network on the block's rows. -/
theorem pay_eq (x0 : Vec Ideal S6400x32 .f32) (x1 x2 : Vec Ideal S6400x64 .bf16) (x3 : Vec Ideal S32x128 .bf16)
    (x4 x5 : Vec Ideal S64x128 .bf16) (x6 : Vec Ideal S1x128 .f32) (x7 : Vec Ideal S128x64 .bf16) (x8 : Vec Ideal S1x64 .f32) :
    k0_pay1 (F := Ideal) x0 x1 x2 x3 x4 x5 x6 x7 x8 = mlpRows (N := 6400) x0 x1 x2 x3 x4 x5 x6 x7 x8 := by
  funext j
  obtain ⟨p, q, rfl⟩ : ∃ (p : Fin 6400) (q : Fin 64), j = ix2 p q := ⟨j 0, j 1, eq_ix2 j⟩
  rw [mlpRows_apply]
  unfold k0_pay1 mlpRow
  dsimp only
  simp only [shapeCast_self]
  rw [addf_apply, mmH, bias2_apply]
  refine congrArg (· + x8 (ix2 (0 : Fin 1) q)) (Finset.sum_congr rfl fun h _ => ?_)
  refine congrArg (· * x7 (ix2 h q)) ?_
  rw [truncf_apply, maximumf_apply, addf_apply, addf_apply, addf_apply, mmE, mmN, mmN, bias1_apply]
  rfl

end Cert.KernelIdeal.Payload

end
-- ==== Proof.Blocks.lean ====
/-
  Which part of its array each window of the grid holds at a point.

  The grid has 250 points. At point `t` the windows of the edge features, of the gathered source rows and of the
  gathered target rows hold rows `6400 t … 6400 t + 6399` of their arrays (all the columns), and so does the result's
  window; the windows of the three weight blocks, of the two bias rows and of the second weight matrix hold their whole
  arrays at every point. An element of a block sits in the array, on each axis, at the block's index times the
  block's extent plus its own coordinate; the block indices are decided once over the 250 points.
-/
import proofs.«159807_j14336600834812_2_alg».proof.Proof.Gen.KernelIdeal.Frame
import Idealize.ShloMosaic.Lib.Pipeline.Value
import Idealize.ShloMosaic.PureOps.Ideal

noncomputable section

namespace Cert.KernelIdeal.Rows

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block each window takes at point `t`, decided over the 250 points: the three row-tiled inputs and the result take
    block `t` of their rows and all their columns; every other window takes its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Window 0's block at point `t` is rows `6400 t … 6400 t + 6399` of its array. -/
theorem blk0 (c : Dev nD) (t : Fin cfg0.N) (x : S6400x32.Idx) (i : S1600000x32.Idx)
    (h0 : (i 0).val = t.val * 6400 + (x 0).val) (h1 : (i 1).val = (x 1).val) :
    (iblk m c 0 t : S6400x32.Idx → EReal) x = (V m c main_arg2 : S1600000x32.Idx → EReal) i := by
  obtain ⟨e00, e01, -, -, -, -, -, -, -, -, -, -, -, -, -, -, -, -, -, -⟩ := idx_facts t
  unfold iblk
  rw [View.read_apply]
  show V m c main_arg2 _ = V m c main_arg2 _
  congr 1
  funext a
  apply Fin.ext
  match a with
  | ⟨0, _⟩ => show win0_0.index t (0 : Fin 2) * 6400 + 1 * (x 0).val = (i 0).val; rw [e00, h0]; omega
  | ⟨1, _⟩ => show win0_0.index t (1 : Fin 2) * 32 + 1 * (x 1).val = (i 1).val; rw [e01, h1]; omega

/-- Window 1's block at point `t` is rows `6400 t … 6400 t + 6399` of its array. -/
theorem blk1 (c : Dev nD) (t : Fin cfg0.N) (x : S6400x64.Idx) (i : S1600000x64.Idx)
    (h0 : (i 0).val = t.val * 6400 + (x 0).val) (h1 : (i 1).val = (x 1).val) :
    (iblk m c 1 t : S6400x64.Idx → EReal) x = (V m c main_call0_v9 : S1600000x64.Idx → EReal) i := by
  obtain ⟨-, -, e10, e11, -, -, -, -, -, -, -, -, -, -, -, -, -, -, -, -⟩ := idx_facts t
  unfold iblk
  rw [View.read_apply]
  show V m c main_call0_v9 _ = V m c main_call0_v9 _
  congr 1
  funext a
  apply Fin.ext
  match a with
  | ⟨0, _⟩ => show win0_1.index t (0 : Fin 2) * 6400 + 1 * (x 0).val = (i 0).val; rw [e10, h0]; omega
  | ⟨1, _⟩ => show win0_1.index t (1 : Fin 2) * 64 + 1 * (x 1).val = (i 1).val; rw [e11, h1]; omega

/-- Window 2's block at point `t` is rows `6400 t … 6400 t + 6399` of its array. -/
theorem blk2 (c : Dev nD) (t : Fin cfg0.N) (x : S6400x64.Idx) (i : S1600000x64.Idx)
    (h0 : (i 0).val = t.val * 6400 + (x 0).val) (h1 : (i 1).val = (x 1).val) :
    (iblk m c 2 t : S6400x64.Idx → EReal) x = (V m c main_call0_v18 : S1600000x64.Idx → EReal) i := by
  obtain ⟨-, -, -, -, e20, e21, -, -, -, -, -, -, -, -, -, -, -, -, -, -⟩ := idx_facts t
  unfold iblk
  rw [View.read_apply]
  show V m c main_call0_v18 _ = V m c main_call0_v18 _
  congr 1
  funext a
  apply Fin.ext
  match a with
  | ⟨0, _⟩ => show win0_2.index t (0 : Fin 2) * 6400 + 1 * (x 0).val = (i 0).val; rw [e20, h0]; omega
  | ⟨1, _⟩ => show win0_2.index t (1 : Fin 2) * 64 + 1 * (x 1).val = (i 1).val; rw [e21, h1]; omega

/-- Window 3's block at every point is its whole array. -/
theorem blk3 (c : Dev nD) (t : Fin cfg0.N) (x : S32x128.Idx) :
    (iblk m c 3 t : S32x128.Idx → EReal) x = (V m c main_call0_v21 : S32x128.Idx → EReal) x := by
  obtain ⟨-, -, -, -, -, -, e30, e31, -, -, -, -, -, -, -, -, -, -, -, -⟩ := idx_facts t
  unfold iblk
  rw [View.read_apply]
  show V m c main_call0_v21 _ = V m c main_call0_v21 _
  congr 1
  funext a
  apply Fin.ext
  match a with
  | ⟨0, _⟩ => show win0_3.index t (0 : Fin 2) * 32 + 1 * (x 0).val = (x 0).val; rw [e30]; omega
  | ⟨1, _⟩ => show win0_3.index t (1 : Fin 2) * 128 + 1 * (x 1).val = (x 1).val; rw [e31]; omega

/-- Window 4's block at every point is its whole array. -/
theorem blk4 (c : Dev nD) (t : Fin cfg0.N) (x : S64x128.Idx) :
    (iblk m c 4 t : S64x128.Idx → EReal) x = (V m c main_call0_v24 : S64x128.Idx → EReal) x := by
  obtain ⟨-, -, -, -, -, -, -, -, e40, e41, -, -, -, -, -, -, -, -, -, -⟩ := idx_facts t
  unfold iblk
  rw [View.read_apply]
  show V m c main_call0_v24 _ = V m c main_call0_v24 _
  congr 1
  funext a
  apply Fin.ext
  match a with
  | ⟨0, _⟩ => show win0_4.index t (0 : Fin 2) * 64 + 1 * (x 0).val = (x 0).val; rw [e40]; omega
  | ⟨1, _⟩ => show win0_4.index t (1 : Fin 2) * 128 + 1 * (x 1).val = (x 1).val; rw [e41]; omega

/-- Window 5's block at every point is its whole array. -/
theorem blk5 (c : Dev nD) (t : Fin cfg0.N) (x : S64x128.Idx) :
    (iblk m c 5 t : S64x128.Idx → EReal) x = (V m c main_call0_v27 : S64x128.Idx → EReal) x := by
  obtain ⟨-, -, -, -, -, -, -, -, -, -, e50, e51, -, -, -, -, -, -, -, -⟩ := idx_facts t
  unfold iblk
  rw [View.read_apply]
  show V m c main_call0_v27 _ = V m c main_call0_v27 _
  congr 1
  funext a
  apply Fin.ext
  match a with
  | ⟨0, _⟩ => show win0_5.index t (0 : Fin 2) * 64 + 1 * (x 0).val = (x 0).val; rw [e50]; omega
  | ⟨1, _⟩ => show win0_5.index t (1 : Fin 2) * 128 + 1 * (x 1).val = (x 1).val; rw [e51]; omega

/-- Window 6's block at every point is its whole array. -/
theorem blk6 (c : Dev nD) (t : Fin cfg0.N) (x : S1x128.Idx) :
    (iblk m c 6 t : S1x128.Idx → EReal) x = (V m c main_call0_v28 : S1x128.Idx → EReal) x := by
  obtain ⟨-, -, -, -, -, -, -, -, -, -, -, -, e60, e61, -, -, -, -, -, -⟩ := idx_facts t
  unfold iblk
  rw [View.read_apply]
  show V m c main_call0_v28 _ = V m c main_call0_v28 _
  congr 1
  funext a
  apply Fin.ext
  match a with
  | ⟨0, _⟩ => show win0_6.index t (0 : Fin 2) * 1 + 1 * (x 0).val = (x 0).val; rw [e60]; omega
  | ⟨1, _⟩ => show win0_6.index t (1 : Fin 2) * 128 + 1 * (x 1).val = (x 1).val; rw [e61]; omega

/-- Window 7's block at every point is its whole array. -/
theorem blk7 (c : Dev nD) (t : Fin cfg0.N) (x : S128x64.Idx) :
    (iblk m c 7 t : S128x64.Idx → EReal) x = (V m c main_call0_v30 : S128x64.Idx → EReal) x := by
  obtain ⟨-, -, -, -, -, -, -, -, -, -, -, -, -, -, e70, e71, -, -, -, -⟩ := idx_facts t
  unfold iblk
  rw [View.read_apply]
  show V m c main_call0_v30 _ = V m c main_call0_v30 _
  congr 1
  funext a
  apply Fin.ext
  match a with
  | ⟨0, _⟩ => show win0_7.index t (0 : Fin 2) * 128 + 1 * (x 0).val = (x 0).val; rw [e70]; omega
  | ⟨1, _⟩ => show win0_7.index t (1 : Fin 2) * 64 + 1 * (x 1).val = (x 1).val; rw [e71]; omega

/-- Window 8's block at every point is its whole array. -/
theorem blk8 (c : Dev nD) (t : Fin cfg0.N) (x : S1x64.Idx) :
    (iblk m c 8 t : S1x64.Idx → EReal) x = (V m c main_call0_v31 : S1x64.Idx → EReal) x := by
  obtain ⟨-, -, -, -, -, -, -, -, -, -, -, -, -, -, -, -, e80, e81, -, -⟩ := idx_facts t
  unfold iblk
  rw [View.read_apply]
  show V m c main_call0_v31 _ = V m c main_call0_v31 _
  congr 1
  funext a
  apply Fin.ext
  match a with
  | ⟨0, _⟩ => show win0_8.index t (0 : Fin 2) * 1 + 1 * (x 0).val = (x 0).val; rw [e80]; omega
  | ⟨1, _⟩ => show win0_8.index t (1 : Fin 2) * 64 + 1 * (x 1).val = (x 1).val; rw [e81]; omega

/-- An element of the result's block at point `t` sits in the result array at row `6400 t` plus its row, in its own column. -/
theorem emb9 (t : Fin cfg0.N) (y : S6400x64.Idx) :
    ((((cfg0.win 9).blk t).view.emb y) 0).val = t.val * 6400 + (y 0).val ∧ ((((cfg0.win 9).blk t).view.emb y) 1).val = (y 1).val := by
  obtain ⟨-, -, -, -, -, -, -, -, -, -, -, -, -, -, -, -, -, -, e90, e91⟩ := idx_facts t
  constructor
  · show win0_9.index t (0 : Fin 2) * 6400 + 1 * (y 0).val = t.val * 6400 + (y 0).val
    rw [e90]; omega
  · show win0_9.index t (1 : Fin 2) * 64 + 1 * (y 1).val = (y 1).val
    rw [e91]; omega

end Cert.KernelIdeal.Rows

end
-- ==== Proof.KernelValue.lean ====
/-
  The kernel's result array after the run, as one function of the arrays the grid finds.

  The grid has 250 points; point `t` works on rows `6400 t … 6400 t + 6399` of the edge features and of the gathered
  source and target rows, and writes rows `6400 t … 6400 t + 6399` of the result; the weights and biases are the same
  whole arrays at every point. What a point writes back is the network of `Payload.pay_eq` on its block of rows; since
  row `r` of the network reads only row `r` of the three row-tiled inputs (`EdgeMlp.mlpRows_congr`), that block is the
  block of the network applied to all 1 600 000 rows at once. The 250 blocks of 6400 rows cover the result array
  (row `r` is in the block of point `r / 6400`), so the array ends holding the network of all the rows.
-/
import proofs.«159807_j14336600834812_2_alg».proof.Proof.Gen.KernelIdeal.Value
import proofs.«159807_j14336600834812_2_alg».proof.Proof.Payload
import proofs.«159807_j14336600834812_2_alg».proof.Proof.Blocks
import proofs.«159807_j14336600834812_2_alg».proof.Proof.EdgeMlp
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- THE RESULT ARRAY as one function of the arrays the grid finds: the network on all the rows. -/
def result (c : Dev nD) : S1600000x64.Idx → EReal :=
  mlpRows (N := 1600000) (V m c main_arg2) (V m c main_call0_v9) (V m c main_call0_v18) (V m c main_call0_v21)
    (V m c main_call0_v24) (V m c main_call0_v27) (V m c main_call0_v28) (V m c main_call0_v30) (V m c main_call0_v31)

/-- WHAT POINT `t` WRITES BACK is block `t` of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz]
  simp only [View.ld_unit_zero (S := S6400x32) hz, View.ld_unit_zero (S := S6400x64) hz, View.ld_unit_zero (S := S32x128) hz,
    View.ld_unit_zero (S := S64x128) hz, View.ld_unit_zero (S := S1x128) hz, View.ld_unit_zero (S := S128x64) hz,
    View.ld_unit_zero (S := S1x64) hz]
  rw [Payload.pay_eq]
  funext y
  show mlpRows (N := 6400) (iblk m c 0 t) (iblk m c 1 t) (iblk m c 2 t) (iblk m c 3 t) (iblk m c 4 t) (iblk m c 5 t) (iblk m c 6 t)
      (iblk m c 7 t) (iblk m c 8 t) y = result m c (((cfg0.win 9).blk t).view.emb y)
  unfold result
  obtain ⟨hrow, hcol⟩ := emb9 t y
  refine mlpRows_congr (n := 6400) (N := 1600000) _ _ _ _ _ _ _ _ _ _ _ _ _ _ _ _ _ _ y (((cfg0.win 9).blk t).view.emb y)
    hcol.symm ?_ ?_ ?_ ?_ ?_ ?_ ?_ ?_ ?_
  · intro k; exact blk0 m c t (ix2 (y 0) k) (ix2 ((((cfg0.win 9).blk t).view.emb y) 0) k) hrow rfl
  · intro k; exact blk1 m c t (ix2 (y 0) k) (ix2 ((((cfg0.win 9).blk t).view.emb y) 0) k) hrow rfl
  · intro k; exact blk2 m c t (ix2 (y 0) k) (ix2 ((((cfg0.win 9).blk t).view.emb y) 0) k) hrow rfl
  · intro k h; exact blk3 m c t (ix2 k h)
  · intro k h; exact blk4 m c t (ix2 k h)
  · intro k h; exact blk5 m c t (ix2 k h)
  · intro h; exact blk6 m c t (ix2 (0 : Fin 1) h)
  · intro h o; exact blk7 m c t (ix2 h o)
  · intro o; exact blk8 m c t (ix2 (0 : Fin 1) o)

/-- An index of the result array is in point `t`'s block iff each coordinate is in the block's range on its axis. -/
theorem mem_blk9 (t : Fin cfg0.N) (i : S1600000x64.Idx) :
    i ∈ ((cfg0.win 9).blk t).view.set ↔ ∀ a : Fin 2, win0_9.index t a * S6400x64.size a ≤ (i a).val
      ∧ (i a).val < win0_9.index t a * S6400x64.size a + S6400x64.size a := by
  show i ∈ ((View.whole main_v0).slice (win0_9.rect t)).set ↔ _
  rw [View.set_slice_whole, Rect.mem_set_unit]
  exact Iff.rfl

/-- Every index of the result array is in the block of the point its row falls in: row `r` in that of point `r / 6400`. -/
theorem cover9 (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have hN : cfg0.N = 250 := N_0
  have ht : (i 0).val / 6400 < cfg0.N := by rw [hN]; omega
  obtain ⟨-, -, -, -, -, -, -, -, -, -, -, -, -, -, -, -, -, -, e90, e91⟩ := idx_facts ⟨(i 0).val / 6400, ht⟩
  refine ⟨⟨(i 0).val / 6400, ht⟩, flush0_9 _, ?_⟩
  rw [mem_blk9]
  intro a
  match a with
  | ⟨0, _⟩ =>
    show win0_9.index ⟨(i 0).val / 6400, ht⟩ (0 : Fin 2) * 6400 ≤ (i 0).val
      ∧ (i 0).val < win0_9.index ⟨(i 0).val / 6400, ht⟩ (0 : Fin 2) * 6400 + 6400
    rw [e90]
    show (i 0).val / 6400 * 6400 ≤ (i 0).val ∧ (i 0).val < (i 0).val / 6400 * 6400 + 6400
    omega
  | ⟨1, _⟩ =>
    show win0_9.index ⟨(i 0).val / 6400, ht⟩ (1 : Fin 2) * 64 ≤ (i 1).val
      ∧ (i 1).val < win0_9.index ⟨(i 0).val / 6400, ht⟩ (1 : Fin 2) * 64 + 64
    rw [e91]
    omega

/-- THE RESULT ARRAY after the run is the network on all the rows. -/
theorem final9 (c : Dev nD) : (dats m 0 c).arrAt 9 cfg0.N = result m c :=
  (dats m 0 c).arrAt_eq_of_cover 9 (result m c) (fun t _ => flushed_eq m c t) cover9

end Cert.KernelIdeal.Rows

end
-- ==== Proof.Operands.lean ====
/-
  What the host operations before the grid leave in the arrays the grid's windows read, over the extended reals.

  Before the grid starts, the host cuts the first weight matrix (128 × 160) into its column blocks 0–31, 32–95 and
  96–159, transposes each and changes its float format; reshapes each bias vector into an array of one row;
  transposes the second weight matrix and changes its float format. A change of float format is the identity on the
  extended reals, so entry `(k, h)` of a transposed column block is the matrix at `(h, column k of the block)`
  (`EdgeMlp.wE`, `wS`, `wT`), a bias row is `EdgeMlp.rowOf` of the bias, and the transposed second matrix is `EdgeMlp.wD`.
-/
import proofs.«159807_j14336600834812_2_alg».proof.Proof.Gen.KernelIdeal.Frame
import proofs.«159807_j14336600834812_2_alg».proof.Proof.EdgeMlp
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx Cert.EdgeMlp

variable (m : (ℓ : Loc nD τ sig) → Buf (Elt Ideal) ℓ)

/-- The first column block, transposed. -/
theorem V_wE (c : Dev nD) :
    (V m c main_call0_v21 : S32x128.Idx → EReal) = wE (m ((c : Thread nD τ).loc main_arg3) : S128x160.Idx → EReal) := by
  have e : (V m c main_call0_v21 : S32x128.Idx → EReal)
      = truncf (F := Ideal) .bf16 (transpose S32x128 [1, 0] (extractStridedSlice S128x32 ![0, 0]
          (m ((c : Thread nD τ).loc main_arg3) : S128x160.Idx → EReal) slices_S128x160_S128x32_0_0)
          transposes_S128x32_S32x128_1_0) bitsLt_bf16_f32 := by
    dsimp only [Gen.V, Gen.hostOps0]; after_results; rfl
  rw [e]
  funext i
  obtain ⟨k, h, rfl⟩ : ∃ (k : Fin 32) (h : Fin 128), i = ix2 k h := ⟨i 0, i 1, eq_ix2 i⟩
  rw [truncf_apply, transpose_ix2_apply, slice2_axis1_apply 0 _ _ h k (colE k) (Nat.zero_add _).symm]
  rfl

/-- The second column block, transposed. -/
theorem V_wS (c : Dev nD) :
    (V m c main_call0_v24 : S64x128.Idx → EReal) = wS (m ((c : Thread nD τ).loc main_arg3) : S128x160.Idx → EReal) := by
  have e : (V m c main_call0_v24 : S64x128.Idx → EReal)
      = truncf (F := Ideal) .bf16 (transpose S64x128 [1, 0] (extractStridedSlice S128x64 ![0, 32]
          (m ((c : Thread nD τ).loc main_arg3) : S128x160.Idx → EReal) slices_S128x160_S128x64_0_32)
          transposes_S128x64_S64x128_1_0) bitsLt_bf16_f32 := by
    dsimp only [Gen.V, Gen.hostOps0]; after_results; rfl
  rw [e]
  funext i
  obtain ⟨k, h, rfl⟩ : ∃ (k : Fin 64) (h : Fin 128), i = ix2 k h := ⟨i 0, i 1, eq_ix2 i⟩
  rw [truncf_apply, transpose_ix2_apply, slice2_axis1_apply 32 _ _ h k (colS k) rfl]
  rfl

/-- The third column block, transposed. -/
theorem V_wT (c : Dev nD) :
    (V m c main_call0_v27 : S64x128.Idx → EReal) = wT (m ((c : Thread nD τ).loc main_arg3) : S128x160.Idx → EReal) := by
  have e : (V m c main_call0_v27 : S64x128.Idx → EReal)
      = truncf (F := Ideal) .bf16 (transpose S64x128 [1, 0] (extractStridedSlice S128x64 ![0, 96]
          (m ((c : Thread nD τ).loc main_arg3) : S128x160.Idx → EReal) slices_S128x160_S128x64_0_96)
          transposes_S128x64_S64x128_1_0) bitsLt_bf16_f32 := by
    dsimp only [Gen.V, Gen.hostOps0]; after_results; rfl
  rw [e]
  funext i
  obtain ⟨k, h, rfl⟩ : ∃ (k : Fin 64) (h : Fin 128), i = ix2 k h := ⟨i 0, i 1, eq_ix2 i⟩
  rw [truncf_apply, transpose_ix2_apply, slice2_axis1_apply 96 _ _ h k (colT k) rfl]
  rfl

/-- The first bias as one row. -/
theorem V_b1 (c : Dev nD) :
    (V m c main_call0_v28 : S1x128.Idx → EReal) = rowOf (m ((c : Thread nD τ).loc main_arg4) : S128.Idx → EReal) := by
  have e : (V m c main_call0_v28 : S1x128.Idx → EReal)
      = shapeCast S1x128 (m ((c : Thread nD τ).loc main_arg4) : S128.Idx → EReal) shapeCasts_S128_S1x128 := by
    dsimp only [Gen.V, Gen.hostOps0]; after_results; rfl
  rw [e]
  funext i
  obtain ⟨u, h, rfl⟩ : ∃ (u : Fin 1) (h : Fin 128), i = ix2 u h := ⟨i 0, i 1, eq_ix2 i⟩
  rw [shapeCast_a_1a_apply]
  rfl

/-- The second weight matrix, transposed. -/
theorem V_wD (c : Dev nD) :
    (V m c main_call0_v30 : S128x64.Idx → EReal) = wD (m ((c : Thread nD τ).loc main_arg5) : S64x128.Idx → EReal) := by
  have e : (V m c main_call0_v30 : S128x64.Idx → EReal)
      = truncf (F := Ideal) .bf16 (transpose S128x64 [1, 0] (m ((c : Thread nD τ).loc main_arg5) : S64x128.Idx → EReal)
          transposes_S64x128_S128x64_1_0) bitsLt_bf16_f32 := by
    dsimp only [Gen.V, Gen.hostOps0]; after_results; rfl
  rw [e]
  funext i
  obtain ⟨h, o, rfl⟩ : ∃ (h : Fin 128) (o : Fin 64), i = ix2 h o := ⟨i 0, i 1, eq_ix2 i⟩
  rw [truncf_apply, transpose_ix2_apply]
  rfl

/-- The second bias as one row. -/
theorem V_b2 (c : Dev nD) :
    (V m c main_call0_v31 : S1x64.Idx → EReal) = rowOf (m ((c : Thread nD τ).loc main_arg6) : S64.Idx → EReal) := by
  have e : (V m c main_call0_v31 : S1x64.Idx → EReal)
      = shapeCast S1x64 (m ((c : Thread nD τ).loc main_arg6) : S64.Idx → EReal) shapeCasts_S64_S1x64 := by
    dsimp only [Gen.V, Gen.hostOps0]; after_results; rfl
  rw [e]
  funext i
  obtain ⟨u, o, rfl⟩ : ∃ (u : Fin 1) (o : Fin 64), i = ix2 u o := ⟨i 0, i 1, eq_ix2 i⟩
  rw [shapeCast_a_1a_apply]
  rfl

end Cert.KernelIdeal.Operands

end
-- ==== Proof.Gathered.lean ====
/-
  The rows of node features gathered for the edges are the same arrays in both programs.

  Both programs take row 0 (the source nodes) and row 1 (the target nodes) of the edge index array, count a negative
  index from the end of the node table (add 50000 to it), and gather the rows of the node features the indices name.
  The kernel's program gathers from the node features after a change of float format, which is the identity on the
  extended reals; so the arrays its grid reads are the reference's gathered rows, as functions of the edge index array
  and the node features.
-/
import proofs.«159807_j14336600834812_2_alg».proof.Proof.Gen.KernelIdeal.Frame
import proofs.«159807_j14336600834812_2_alg».proof.Proof.Gen.ReferenceIdeal.Read
import Idealize.ShloMosaic.Lib.StableHlo.Run
import Idealize.ShloMosaic.PureOps.Ideal

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The gathered source rows. -/
theorem V_src (c : Dev nD) :
    (V m c main_call0_v9 : S1600000x64.Idx → EReal)
      = Cert.ReferenceIdeal.Read.val_main_v8 (F := Ideal) (m ((c : Thread nD τ).loc main_arg0)) (m ((c : Thread nD τ).loc main_arg1)) := by
  dsimp only [Gen.V, Gen.hostOps0]; after_results_simp; rfl

set_option maxHeartbeats 2000000 in
/-- The gathered target rows. -/
theorem V_tgt (c : Dev nD) :
    (V m c main_call0_v18 : S1600000x64.Idx → EReal)
      = Cert.ReferenceIdeal.Read.val_main_v17 (F := Ideal) (m ((c : Thread nD τ).loc main_arg0)) (m ((c : Thread nD τ).loc main_arg1)) := by
  dsimp only [Gen.V, Gen.hostOps0]; after_results_simp; rfl

end Cert.KernelIdeal.Gathered

end
-- ==== Proof.RefValue.lean ====
/-
  The reference's result, read entry by entry, is the network `EdgeMlp.G` of the edge features, the gathered source
  and target rows, and the weights and biases.

  The reference lays the three inputs of an edge side by side in one row of 160 columns, multiplies the rows with the
  transposed first weight matrix in ONE product, adds the first bias, cuts below at zero, multiplies with the transposed
  second weight matrix and adds the second bias. Its sum over the 160 columns is split into the sums over columns
  0–31, 32–95 and 96–159 (`EdgeMlp.sum_cols`), and in each range the joined row reads the corresponding input
  (`cat_E`, `cat_S`, `cat_T`).
-/
import proofs.«159807_j14336600834812_2_alg».proof.Proof.Gen.ReferenceIdeal.Read
import proofs.«159807_j14336600834812_2_alg».proof.Proof.EdgeMlp
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.EdgeMlp

variable (x0 : (⟨S2x1600000, .i32⟩ : BufTy).Contents (Elt Ideal)) (x1 : (⟨S50000x64, .f32⟩ : BufTy).Contents (Elt Ideal))
  (x2 : (⟨S1600000x32, .f32⟩ : BufTy).Contents (Elt Ideal)) (x3 : (⟨S128x160, .f32⟩ : BufTy).Contents (Elt Ideal))
  (x4 : (⟨S128, .f32⟩ : BufTy).Contents (Elt Ideal)) (x5 : (⟨S64x128, .f32⟩ : BufTy).Contents (Elt Ideal))
  (x6 : (⟨S64, .f32⟩ : BufTy).Contents (Elt Ideal))

/-- Columns 0–31 of the joined row are the edge features. -/
theorem cat_E (e : Fin 1600000) (k : Fin 32) :
    val_main_v18 (F := Ideal) x0 x1 x2 (ix2 e (colE k)) = x2 (ix2 e k) := by
  unfold val_main_v18
  exact concatenate_apply_piece 1 _ _ (ix2 e (colE k)) 0 (by show 0 < 3; omega) S1600000x32 x2 rfl rfl 0 rfl (ix2 e k)
    (fun b hb => by match b with | ⟨0, _⟩ => rfl | ⟨1, _⟩ => exact absurd rfl hb) (Nat.zero_add _)

/-- Columns 32–95 are the source node's features. -/
theorem cat_S (e : Fin 1600000) (k : Fin 64) :
    val_main_v18 (F := Ideal) x0 x1 x2 (ix2 e (colS k)) = val_main_v8 (F := Ideal) x0 x1 (ix2 e k) := by
  unfold val_main_v18
  exact concatenate_apply_piece 1 _ _ (ix2 e (colS k)) 1 (by show 1 < 3; omega) S1600000x64 (val_main_v8 (F := Ideal) x0 x1) rfl rfl 32 rfl
    (ix2 e k) (fun b hb => by match b with | ⟨0, _⟩ => rfl | ⟨1, _⟩ => exact absurd rfl hb) rfl

/-- Columns 96–159 are the target node's features. -/
theorem cat_T (e : Fin 1600000) (k : Fin 64) :
    val_main_v18 (F := Ideal) x0 x1 x2 (ix2 e (colT k)) = val_main_v17 (F := Ideal) x0 x1 (ix2 e k) := by
  unfold val_main_v18
  exact concatenate_apply_piece 1 _ _ (ix2 e (colT k)) 2 (by show 2 < 3; omega) S1600000x64 (val_main_v17 (F := Ideal) x0 x1) rfl rfl 96 rfl
    (ix2 e k) (fun b hb => by match b with | ⟨0, _⟩ => rfl | ⟨1, _⟩ => exact absurd rfl hb) rfl

/-- Two rank-2 indices with the same coordinates are equal. -/
theorem idx2_ext {n0 n1 : Nat} (u v : (⟨2, ![n0, n1]⟩ : Shape).Idx) (h0 : (u 0).val = (v 0).val) (h1 : (u 1).val = (v 1).val) :
    u = v := funext fun a => Fin.ext (by match a with | ⟨0, _⟩ => exact h0 | ⟨1, _⟩ => exact h1)

/-- The first product at `(e, h)`: the sum over the 160 columns, split by the three inputs. -/
theorem pre_eq (e : Fin 1600000) (h : Fin 128) :
    val_main_v20 (F := Ideal) x0 x1 x2 x3 (ix2 e h)
      = ((∑ k : Fin 32, x2 (ix2 e k) * x3 (ix2 h (colE k)))
          + ∑ k : Fin 64, val_main_v8 (F := Ideal) x0 x1 (ix2 e k) * x3 (ix2 h (colS k)))
        + ∑ k : Fin 64, val_main_v17 (F := Ideal) x0 x1 (ix2 e k) * x3 (ix2 h (colT k)) := by
  rw [val_main_v20_apply, sum_cols]
  refine congrArg₂ (· + ·) (congrArg₂ (· + ·) (Finset.sum_congr rfl fun k _ => ?_) (Finset.sum_congr rfl fun k _ => ?_))
    (Finset.sum_congr rfl fun k _ => ?_)
  · rw [idx2_ext (lidx_main_v20 (ix2 e h) (colE k)) (ix2 e (colE k)) rfl rfl, cat_E, val_main_v19_apply]
    exact congrArg (x2 (ix2 e k) * x3 ·) (idx2_ext _ _ rfl rfl)
  · rw [idx2_ext (lidx_main_v20 (ix2 e h) (colS k)) (ix2 e (colS k)) rfl rfl, cat_S, val_main_v19_apply]
    exact congrArg (val_main_v8 (F := Ideal) x0 x1 (ix2 e k) * x3 ·) (idx2_ext _ _ rfl rfl)
  · rw [idx2_ext (lidx_main_v20 (ix2 e h) (colT k)) (ix2 e (colT k)) rfl rfl, cat_T, val_main_v19_apply]
    exact congrArg (val_main_v17 (F := Ideal) x0 x1 (ix2 e k) * x3 ·) (idx2_ext _ _ rfl rfl)

/-- The hidden unit `(e, h)` of the reference. -/
theorem hidden_eq (e : Fin 1600000) (h : Fin 128) :
    val_main_v24 (F := Ideal) x0 x1 x2 x3 x4 (ix2 e h)
      = hiddenAt (fun k => x2 (ix2 e k)) (fun k => val_main_v8 (F := Ideal) x0 x1 (ix2 e k))
          (fun k => val_main_v17 (F := Ideal) x0 x1 (ix2 e k)) (fun k h => wE x3 (ix2 k h)) (fun k h => wS x3 (ix2 k h))
          (fun k h => wT x3 (ix2 k h)) (fun h => rowOf x4 (ix2 (0 : Fin 1) h)) (Ideal.ofBits .f32 0x00000000#32) h := by
  rw [val_main_v24_apply, val_main_v23_apply, pre_eq, val_main_v22_apply, val_main_v21_apply, val_main_call0_v0_apply,
    val_main_call0_cst_apply,
    show idx_main_v21 (idx_main_v22 (ix2 e h)) = ix1 h from funext fun a => Fin.ext (by match a with | ⟨0, _⟩ => rfl)]
  rfl

/-- THE REFERENCE'S RESULT is the network of its inputs. -/
theorem ref_eq :
    val_main_v29 (F := Ideal) x0 x1 x2 x3 x4 x5 x6
      = G (N := 1600000) x2 (val_main_v8 (F := Ideal) x0 x1) (val_main_v17 (F := Ideal) x0 x1) x3 x4 x5 x6 := by
  funext i
  obtain ⟨e, o, rfl⟩ : ∃ (e : Fin 1600000) (o : Fin 64), i = ix2 e o := ⟨i 0, i 1, eq_ix2 i⟩
  unfold G
  rw [mlpRows_apply]
  unfold mlpRow
  rw [val_main_v29_apply, val_main_v26_apply, val_main_v28_apply, val_main_v27_apply]
  refine congrArg₂ (· + ·) (Finset.sum_congr rfl fun h _ => ?_)
    (congrArg x6 (funext fun a => Fin.ext (by match a with | ⟨0, _⟩ => rfl)))
  rw [idx2_ext (lidx_main_v26 (ix2 e o) h) (ix2 e h) rfl rfl, hidden_eq, val_main_v25_apply]
  exact congrArg (hiddenAt _ _ _ _ _ _ _ _ h * x5 ·) (idx2_ext _ _ rfl rfl)

end Cert.ReferenceIdeal.RefValue

end
-- ==== Proof.lean ====
/-
  A two-layer network applied to every edge of a graph: for each of 1 600 000 edges, the 32 edge features and the 64
  features of the edge's source node and of its target node go through an affine layer of 128 units cut below at
  zero and an affine layer of 64 units.

  The kernel gathers the source and target rows, cuts the first weight matrix into the three column blocks that meet the
  three inputs, and runs a grid of 250 points over blocks of 6400 edges, each point adding the three partial products;
  the reference joins the three inputs into rows of 160 numbers and multiplies once. Over the extended reals every
  change of float format is the identity, so the kernel's result array (`Rows.final9`, with the operands of
  `Operands` and the gathered rows of `Gathered`) and the reference's (`RefValue.ref_eq`) are the same function
  `EdgeMlp.G` of the argument arrays: a sum over 160 columns is the sum of the sums over its three ranges. No entry needs
  to be finite for that, so the precondition is not used.
-/
import proofs.«159807_j14336600834812_2_alg».proof.Defs
import proofs.«159807_j14336600834812_2_alg».proof.Proof.Gen.Kernel
import proofs.«159807_j14336600834812_2_alg».proof.Proof.Gen.Kernel.Frame
import proofs.«159807_j14336600834812_2_alg».proof.Proof.Gen.KernelIdeal
import proofs.«159807_j14336600834812_2_alg».proof.Proof.Gen.KernelIdeal.Frame
import proofs.«159807_j14336600834812_2_alg».proof.Proof.Gen.KernelIdeal.Value
import proofs.«159807_j14336600834812_2_alg».proof.Proof.Gen.ReferenceIdeal
import proofs.«159807_j14336600834812_2_alg».proof.Proof.Gen.ReferenceIdeal.Run
import proofs.«159807_j14336600834812_2_alg».proof.Proof.Gen.ReferenceIdeal.Read
import proofs.«159807_j14336600834812_2_alg».proof.Proof.Gen.Pre_finite_inputs
import proofs.«159807_j14336600834812_2_alg».proof.Proof.EdgeMlp
import proofs.«159807_j14336600834812_2_alg».proof.Proof.KernelValue
import proofs.«159807_j14336600834812_2_alg».proof.Proof.Operands
import proofs.«159807_j14336600834812_2_alg».proof.Proof.Gathered
import proofs.«159807_j14336600834812_2_alg».proof.Proof.RefValue
import Idealize.ShloMosaic.Adequacy
import Idealize.ShloMosaic.Init

noncomputable section

namespace Cert.Proof

open Idealize.ShloMosaic Idealize.ShloMosaic.TcCoe Idealize.SL.Sem

namespace Claims

open Cert.KernelIdeal in
/-- The network on all the rows of the arrays the grid finds is `EdgeMlp.G` of the argument arrays: the gathered rows
    are the reference's, the weight blocks, the bias rows and the transposed second matrix are read out of the
    arguments. -/
theorem kernel_result (m : (ℓ : Loc nD τ sig) → Buf (Elt Ideal) ℓ) (c : Dev nD) :
    Cert.KernelIdeal.Rows.result m c
      = Cert.EdgeMlp.G (N := 1600000) (m ((c : Thread nD τ).loc main_arg2))
          (Cert.ReferenceIdeal.Read.val_main_v8 (F := Ideal) (m ((c : Thread nD τ).loc main_arg0)) (m ((c : Thread nD τ).loc main_arg1)))
          (Cert.ReferenceIdeal.Read.val_main_v17 (F := Ideal) (m ((c : Thread nD τ).loc main_arg0)) (m ((c : Thread nD τ).loc main_arg1)))
          (m ((c : Thread nD τ).loc main_arg3)) (m ((c : Thread nD τ).loc main_arg4)) (m ((c : Thread nD τ).loc main_arg5))
          (m ((c : Thread nD τ).loc main_arg6)) := by
  unfold Cert.KernelIdeal.Rows.result Cert.EdgeMlp.G
  rw [Cert.KernelIdeal.Gen.V_main_arg2, Cert.KernelIdeal.Gathered.V_src, Cert.KernelIdeal.Gathered.V_tgt,
    Cert.KernelIdeal.Operands.V_wE, Cert.KernelIdeal.Operands.V_wS, Cert.KernelIdeal.Operands.V_wT,
    Cert.KernelIdeal.Operands.V_b1, Cert.KernelIdeal.Operands.V_wD, Cert.KernelIdeal.Operands.V_b2]

open Cert.KernelIdeal in
/-- The kernel's run, read: the result array ends at the network of the argument arrays, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
        = Cert.EdgeMlp.G (N := 1600000) (m ((c : Thread nD τ).loc main_arg2))
            (Cert.ReferenceIdeal.Read.val_main_v8 (F := Ideal) (m ((c : Thread nD τ).loc main_arg0)) (m ((c : Thread nD τ).loc main_arg1)))
            (Cert.ReferenceIdeal.Read.val_main_v17 (F := Ideal) (m ((c : Thread nD τ).loc main_arg0)) (m ((c : Thread nD τ).loc main_arg1)))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun r h c => ⟨(h c).1.trans ((Cert.KernelIdeal.Rows.final9 m c).trans (kernel_result m c)), (h c).2⟩)
    (Cert.KernelIdeal.Value.run_blocks m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel: there is nothing to restate. -/
theorem preserves : Cert.preserves_Kernel_KernelIdeal := trivial

/-- Over the extended reals the kernel's result array and the reference's are one function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
